-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S3x1024x1024 : Shape := ⟨3, ![3, 1024, 1024]⟩
abbrev S3x1024 : Shape := ⟨2, ![3, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_
  bcast_S_S3x1024 : S_.BroadcastsInDim S3x1024 (![] : Fin 0 → Fin S3x1024.rank)
  reducesTo_S3x1024_S_d0_1 : S3x1024.ReducesTo [0, 1] S_

variable [Facts]

def fn_part1 {F : FTy → Type} [FloatOps F] (main_arg4 : FVec F S3x1024 .f32) (main_arg5 : FVec F S3x1024 .f32) (main_v13 : IVec S_ 1) (main_v16 : IVec S3x1024x1024 1) : IVec S_ 1 :=
  let main_c_5 : IVec S_ 1 := constantI S_ 1 1#1
  let main_v17 : IVec S_ 1 := (fun x v => Host.reduce IntOp.andi x v reducesTo_S3x1024x1024_S_d0_1_2 h_S_) main_v16 main_c_5
  let main_v18 : IVec S_ 1 := andi main_v13 main_v17
  let main_v19 : FVec F S3x1024 .f32 := Host.absf main_arg4
  let main_cst_6 : FVec F S_ .f32 := constant S_ .f32 0x7F800000#32
  let main_v20 : FVec F S3x1024 .f32 := broadcastInDim S3x1024 ![] bcast_S_S3x1024 main_cst_6
  let main_v21 : IVec S3x1024 1 := cmpf .olt main_v19 main_v20
  let main_c_7 : IVec S_ 1 := constantI S_ 1 1#1
  let main_v22 : IVec S_ 1 := (fun x v => Host.reduce IntOp.andi x v reducesTo_S3x1024_S_d0_1 h_S_) main_v21 main_c_7
  let main_v23 : IVec S_ 1 := andi main_v18 main_v22
  let main_v24 : FVec F S3x1024 .f32 := Host.absf main_arg5
  let main_cst_8 : FVec F S_ .f32 := constant S_ .f32 0x7F800000#32
  let main_v25 : FVec F S3x1024 .f32 := broadcastInDim S3x1024 ![] bcast_S_S3x1024 main_cst_8
  let main_v26 : IVec S3x1024 1 := cmpf .olt main_v24 main_v25
  let main_c_9 : IVec S_ 1 := constantI S_ 1 1#1
  let main_v27 : IVec S_ 1 := (fun x v => Host.reduce IntOp.andi x v reducesTo_S3x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S3x1024x1024 .f32) (main_arg3 : FVec F S3x1024x1024 .f32) (main_arg4 : FVec F S3x1024 .f32) (main_arg5 : FVec F S3x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S3x1024x1024 .f32 := Host.absf main_arg2
  let main_cst_2 : FVec F S_ .f32 := constant S_ .f32 0x7F800000#32
  let main_v10 : FVec F S3x1024x1024 .f32 := broadcastInDim S3x1024x1024 ![] bcast_S_S3x1024x1024 main_cst_2
  let main_v11 : IVec S3x1024x1024 1 := cmpf .olt main_v9 main_v10
  let main_c_3 : IVec S_ 1 := constantI S_ 1 1#1
  let main_v12 : IVec S_ 1 := (fun x v => Host.reduce IntOp.andi x v reducesTo_S3x1024x1024_S_d0_1_2 h_S_) main_v11 main_c_3
  let main_v13 : IVec S_ 1 := andi main_v8 main_v12
  let main_v14 : FVec F S3x1024x1024 .f32 := Host.absf main_arg3
  let main_cst_4 : FVec F S_ .f32 := constant S_ .f32 0x7F800000#32
  let main_v15 : FVec F S3x1024x1024 .f32 := broadcastInDim S3x1024x1024 ![] bcast_S_S3x1024x1024 main_cst_4
  let main_v16 : IVec S3x1024x1024 1 := cmpf .olt main_v14 main_v15
  fn_part1 (F := F) main_arg4 main_arg5 main_v13 main_v16
-- ==== Kernel.lean ====
abbrev S4096x1024 : Shape := ⟨2, ![4096, 1024]⟩
abbrev S3x1024x1024 : Shape := ⟨3, ![3, 1024, 1024]⟩
abbrev S3x1024 : Shape := ⟨2, ![3, 1024]⟩
abbrev S128x1024 : Shape := ⟨2, ![128, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S3x1024x1024, .f32⟩
  | .hbm, ⟨3, _⟩ => ⟨S3x1024x1024, .f32⟩
  | .hbm, ⟨4, _⟩ => ⟨S3x1024, .f32⟩
  | .hbm, ⟨5, _⟩ => ⟨S3x1024, .f32⟩
  | .hbm, ⟨6, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S3x1024x1024, .f32⟩
  | .local _ .vmem, ⟨5, _⟩ => ⟨S3x1024x1024, .f32⟩
  | .local _ .vmem, ⟨6, _⟩ => ⟨S3x1024, .f32⟩
  | .local _ .vmem, ⟨7, _⟩ => ⟨S3x1024, .f32⟩
  | .local _ .vmem, ⟨8, _⟩ => ⟨S128x1024, .f32⟩
  | .local _ .vmem, ⟨9, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S128x1024_S128x1024_0_0 : ∀ a, (![0, 0] : Fin 2 → Nat) a + S128x1024.size a ≤ S128x1024.size a
  h_S128x1024 : 0 < S128x1024.numel
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  inb_S3x1024_S1x1024_0_0 : ∀ a, (![0, 0] : Fin 2 → Nat) a + S1x1024.size a ≤ S3x1024.size a
  h_S1x1024 : 0 < S1x1024.numel
  shapeCasts_S1x1024_S1024 : S1x1024.ShapeCasts S1024
  shapeCasts_S1024_S1x1024 : S1024.ShapeCasts S1x1024
  broadcasts_S1x1024_S128x1024 : S1x1024.Broadcasts S128x1024
  inb_S3x1024x1024_S1x1024x1024_1_0_0 : ∀ a, (![1, 0, 0] : Fin 3 → Nat) a + S1x1024x1024.size a ≤ S3x1024x1024.size a
  inb_S3x1024_S1x1024_1_0 : ∀ a, (![1, 0] : Fin 2 → Nat) a + S1x1024.size a ≤ S3x1024.size a
  inb_S3x1024x1024_S1x1024x1024_2_0_0 : ∀ a, (![2, 0, 0] : Fin 3 → Nat) a + S1x1024x1024.size a ≤ S3x1024x1024.size a
  inb_S3x1024_S1x1024_2_0 : ∀ a, (![2, 0] : Fin 2 → Nat) a + S1x1024.size a ≤ S3x1024.size a
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024x1024.size a ≤ S3x1024x1024.size a
  hwx0_2 : ∀ i : grid0.Coords, EltTy.bits .f32 = 32 ∨ (Rect.block (s := S3x1024x1024) S3x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024x1024.size a ≤ S3x1024x1024.size a
  hwx0_3 : ∀ i : grid0.Coords, EltTy.bits .f32 = 32 ∨ (Rect.block (s := S3x1024x1024) S3x1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1024.size a ≤ S3x1024.size a
  hwx0_4 : ∀ i : grid0.Coords, EltTy.bits .f32 = 32 ∨ (Rect.block (s := S3x1024) S3x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1024.size a ≤ S3x1024.size a
  hwx0_5 : ∀ i : grid0.Coords, EltTy.bits .f32 = 32 ∨ (Rect.block (s := S3x1024) S3x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S3x1024x1024 : Shape := ⟨3, ![3, 1024, 1024]⟩
abbrev S3x1024 : Shape := ⟨2, ![3, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩

abbrev nBuf : Space → Nat
  | .hbm => 174
  | .vmem => 0
  | .smem => 0
  | _ => 0

abbrev hbmTy0_0 (i : Nat) : BufTy := match i % 128 with
  | 0 => ⟨S4096x1024, .f32⟩
  | 1 => ⟨S4096x1024, .f32⟩
  | 2 => ⟨S3x1024x1024, .f32⟩
  | 3 => ⟨S3x1024x1024, .f32⟩
  | 4 => ⟨S3x1024, .f32⟩
  | 5 => ⟨S3x1024, .f32⟩
  | 6 => ⟨S1x1024x1024, .f32⟩
  | 7 => ⟨S1024x1024, .f32⟩
  | 8 => ⟨S4096x1024, .f32⟩
  | 9 => ⟨S1x1024, .f32⟩
  | 10 => ⟨S1024, .f32⟩
  | 11 => ⟨S1x1024, .f32⟩
  | 12 => ⟨S4096x1024, .f32⟩
  | 13 => ⟨S4096x1024, .f32⟩
  | 14 => ⟨S1x1024x1024, .f32⟩
  | 15 => ⟨S1024x1024, .f32⟩
  | 16 => ⟨S4096x1024, .f32⟩
  | 17 => ⟨S1x1024, .f32⟩
  | 18 => ⟨S1024, .f32⟩
  | 19 => ⟨S1x1024, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S_, .f32⟩
  | 28 => ⟨S_, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S1x1024x1024, .f32⟩
  | 51 => ⟨S1024x1024, .f32⟩
  | 52 => ⟨S4096x1024, .f32⟩
  | 53 => ⟨S1x1024, .f32⟩
  | 54 => ⟨S1024, .f32⟩
  | 55 => ⟨S1x1024, .f32⟩
  | 56 => ⟨S4096x1024, .f32⟩
  | 57 => ⟨S4096x1024, .f32⟩
  | 58 => ⟨S1x1024x1024, .f32⟩
  | 59 => ⟨S1024x1024, .f32⟩
  | 60 => ⟨S4096x1024, .f32⟩
  | 61 => ⟨S1x1024, .f32⟩
  | 62 => ⟨S1024, .f32⟩
  | 63 => ⟨S1x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1024, .f32⟩
  | 71 => ⟨S_, .f32⟩
  | 72 => ⟨S_, .f32⟩
  | 73 => ⟨S_, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x1024, .f32⟩
  | 94 => ⟨S1x1024x1024, .f32⟩
  | 95 => ⟨S1024x1024, .f32⟩
  | 96 => ⟨S4096x1024, .f32⟩
  | 97 => ⟨S1x1024, .f32⟩
  | 98 => ⟨S1024, .f32⟩
  | 99 => ⟨S1x1024, .f32⟩
  | 100 => ⟨S4096x1024, .f32⟩
  | 101 => ⟨S4096x1024, .f32⟩
  | 102 => ⟨S1x1024x1024, .f32⟩
  | 103 => ⟨S1024x1024, .f32⟩
  | 104 => ⟨S4096x1024, .f32⟩
  | 105 => ⟨S1x1024, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S4096x1024, .f32⟩
  | 114 => ⟨S_, .f32⟩
  | 115 => ⟨S_, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S_, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S_, .f32⟩
  | 2 => ⟨S_, .f32⟩
  | 3 => ⟨S4096x1024, .f32⟩
  | 4 => ⟨S4096x1024, .f32⟩
  | 5 => ⟨S_, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S_, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S_, .f32⟩
  | 39 => ⟨S_, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_cst_15 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_17 : Ref sig .tc := ⟨.hbm, 128, rfl⟩
abbrev main_cst_18 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v89 : Ref sig .tc := ⟨.hbm, 135, rfl⟩
abbrev main_cst_19 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_20 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_21 : Ref sig .tc := ⟨.hbm, 144, rfl⟩
abbrev main_v96 : Ref sig .tc := ⟨.hbm, 145, rfl⟩
abbrev main_v97 : Ref sig .tc := ⟨.hbm, 146, rfl⟩
abbrev main_cst_22 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_23 : Ref sig .tc := ⟨.hbm, 151, rfl⟩
abbrev main_cst_24 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_25 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_26 : Ref sig .tc := ⟨.hbm, 166, rfl⟩
abbrev main_cst_27 : Ref sig .tc := ⟨.hbm, 167, rfl⟩
abbrev main_call5_v0 : Ref sig .tc := ⟨.hbm, 168, rfl⟩
abbrev main_call5_v1 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_v108 : Ref sig .tc := ⟨.hbm, 173, rfl⟩

abbrev nD : Nat := 1
abbrev τ : Topo := Topo.v7x

variable {F : FTy → Type} [FloatOps F]

class Facts₀ : Prop where
  slices_S3x1024x1024_S1x1024x1024_0_0_0 : S3x1024x1024.Slices ![0, 0, 0] S1x1024x1024
  shapeCasts_S1x1024x1024_S1024x1024 : S1x1024x1024.ShapeCasts S1024x1024
  slices_S3x1024_S1x1024_0_0 : S3x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  slices_S3x1024x1024_S1x1024x1024_1_0_0 : S3x1024x1024.Slices ![1, 0, 0] S1x1024x1024
  slices_S3x1024_S1x1024_1_0 : S3x1024.Slices ![1, 0] S1x1024
  slices_S3x1024x1024_S1x1024x1024_2_0_0 : S3x1024x1024.Slices ![2, 0, 0] S1x1024x1024
  slices_S3x1024_S1x1024_2_0 : S3x1024.Slices ![2, 0] S1x1024
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.Cell.lean ====
/-
  The quantised GRU cell as a function on the extended reals.

  Every gate input is "cut": scaled by 1/256, floored, and clamped to [-128, 127].  The reset and update gates are
  floor (127 · σ(cut(·) / 40)), the candidate is floor (127 · tanh(cut(·) / 64)), and the new state is
  cut (n · cut (127 − z) + h · z).  The gate pre-activations are sums of four terms — two matrix–vector
  products and two biases — and the only algebra needed to compare two spellings of the cell is that
  addition of extended reals is associative.

  The float literals are kept as the IEEE words both programs spell; only the literal 1.0 (the numerator
  and the summand of the written-out logistic) is ever evaluated.
-/
import Idealize.ShloMosaic.PureOps.Ideal
import Idealize.ShloMosaic.PureOps.Ideal.Laws
import Idealize.ShloMosaic.Lib.ValueIdx

noncomputable section

namespace Cert.GruCell

open Idealize.ShloMosaic Idealize.ShloMosaic.ValueIdx

/-- 2⁻⁸, the scale of every cut. -/
abbrev cScale : EReal := Ideal.ofBits .f32 0x3B800000#32
/-- −128, the lower clamp. -/
abbrev cLo : EReal := Ideal.ofBits .f32 0xC3000000#32
/-- 127, the upper clamp and the gates' multiplier. -/
abbrev cHi : EReal := Ideal.ofBits .f32 0x42FE0000#32
/-- 40, the divisor in front of the logistic. -/
abbrev c40 : EReal := Ideal.ofBits .f32 0x42200000#32
/-- 64, the divisor in front of the hyperbolic tangent. -/
abbrev c64 : EReal := Ideal.ofBits .f32 0x42800000#32

/-- floor (v / 256) clamped to [−128, 127]: first the maximum with −128, then the minimum with 127. -/
def cut (v : EReal) : EReal := min cHi (max cLo (Ideal.liftRound Int.floor (v * cScale)))

/-- A sigmoid gate: floor (127 · σ (cut v / 40)). -/
def gateS (v : EReal) : EReal := Ideal.liftRound Int.floor (cHi * Ideal.logistic (Ideal.div (cut v) c40))

/-- The candidate's squashing: floor (127 · tanh (cut v / 64)). -/
def gateT (v : EReal) : EReal := Ideal.liftRound Int.floor (cHi * Ideal.tanh (Ideal.div (cut v) c64))

/-- The cell at one output element, from the reset gate's pre-activation `r`, the update gate's `z`, the
    candidate's input part `n` and hidden part `g`, and the old state `h`. -/
def cellOf (r z n g h : EReal) : EReal :=
  cut (gateT (n + gateS r * cut g) * cut (cHi - gateS z) + h * gateS z)

/-- The cell from the twelve linear pieces (a product `a`, its bias `b`, the hidden product `h`, its bias `d`,
    per gate), with each gate's four terms added from the left. -/
def cell (ar br hr dr az bz hz dz an bn hn dn h : EReal) : EReal :=
  cellOf (ar + br + hr + dr) (az + bz + hz + dz) (an + bn) (hn + dn) h

/-- The same cell with each gate's terms added as (input part) + (hidden part): associativity of +. -/
theorem cell_grouped (ar br hr dr az bz hz dz an bn hn dn h : EReal) :
    cellOf ((ar + br) + (hr + dr)) ((az + bz) + (hz + dz)) (an + bn) (hn + dn) h
      = cell ar br hr dr az bz hz dz an bn hn dn h := by
  unfold cell
  rw [add_assoc (ar + br) hr dr, add_assoc (az + bz) hz dz]

/-- The word 0x3F800000 is the number one. -/
theorem ofBits_one : Ideal.ofBits .f32 0x3F800000#32 = 1 := by
  simp [Ideal.ofBits, Ideal.ieee, -EReal.coe_mul]; norm_num

/-- The logistic written out with that word, 1 / (1 + e^(−v)), is the logistic. -/
theorem logistic_written (v : EReal) :
    Ideal.div (Ideal.ofBits .f32 0x3F800000#32) (Ideal.ofBits .f32 0x3F800000#32 + Ideal.exp (-v)) = Ideal.logistic v := by
  rw [ofBits_one]; rfl

/-! ## The whole array -/

/-- Row `p` of `x` against column `q` of the `g`-gateT matrix of `w`: the entry (p, q) of x · w[g]. -/
def lin {B : Nat} (x : (⟨2, ![B, 1024]⟩ : Shape).Idx → EReal) (w : (⟨3, ![3, 1024, 1024]⟩ : Shape).Idx → EReal)
    (g : Fin 3) (p : Fin B) (q : Fin 1024) : EReal :=
  ∑ k : Fin 1024, x (ix2 p k) * w (ix3 g k q)

/-- The new state at (p, q), for a batch of `B` rows. -/
def next {B : Nat} (x hid : (⟨2, ![B, 1024]⟩ : Shape).Idx → EReal)
    (wi wh : (⟨3, ![3, 1024, 1024]⟩ : Shape).Idx → EReal) (bi bh : (⟨2, ![3, 1024]⟩ : Shape).Idx → EReal)
    (p : Fin B) (q : Fin 1024) : EReal :=
  cell (lin x wi 0 p q) (bi (ix2 0 q)) (lin hid wh 0 p q) (bh (ix2 0 q))
       (lin x wi 1 p q) (bi (ix2 1 q)) (lin hid wh 1 p q) (bh (ix2 1 q))
       (lin x wi 2 p q) (bi (ix2 2 q)) (lin hid wh 2 p q) (bh (ix2 2 q))
       (hid (ix2 p q))

/-- The new state as an array. -/
def nextArr {B : Nat} (x hid : (⟨2, ![B, 1024]⟩ : Shape).Idx → EReal)
    (wi wh : (⟨3, ![3, 1024, 1024]⟩ : Shape).Idx → EReal) (bi bh : (⟨2, ![3, 1024]⟩ : Shape).Idx → EReal) :
    (⟨2, ![B, 1024]⟩ : Shape).Idx → EReal :=
  fun i => next x hid wi wh bi bh (i 0) (i 1)

theorem nextArr_ix2 {B : Nat} (x hid : (⟨2, ![B, 1024]⟩ : Shape).Idx → EReal)
    (wi wh : (⟨3, ![3, 1024, 1024]⟩ : Shape).Idx → EReal) (bi bh : (⟨2, ![3, 1024]⟩ : Shape).Idx → EReal)
    (p : Fin B) (q : Fin 1024) : nextArr x hid wi wh bi bh (ix2 p q) = next x hid wi wh bi bh p q := rfl

end Cert.GruCell

end
-- ==== Proof.KernelAt.lean ====
/-
  One grid point of the kernel, read at an element.

  The body receives a 128-row block of x and of the old state, the whole weight stacks and the whole bias
  stacks, and stores one 128 × 1024 block.  At row p and column q of the block the stored value is the
  quantised GRU cell of: the six dot products of row p (of x or of the old state) with column q of one
  of the six weight matrices, the six bias entries in column q, and the old state at (p, q).  Each dot
  product is the matrix unit's contraction onto a zero accumulator, a sum over the 1024 contracted
  positions; each bias row arrives through a drop and a re-insertion of its unit axis and a broadcast over
  the rows, all of which only move indices.  The kernel adds each gate's four terms from the left.
-/
import proofs.«173634_j80032420593692_2_alg».proof.Proof.Gen.KernelIdeal.Frame
import proofs.«173634_j80032420593692_2_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.GruCell
open Idealize.ShloMosaic Idealize.ShloMosaic.ValueIdx

/-! ## The contraction's index maps -/

theorem lhs_row (i : S128x1024.Idx) (r : dot_S128x1024_S1024x1024_S128x1024_1_0_0_1_n_n.contr.Idx) :
    (dot_S128x1024_S1024x1024_S128x1024_1_0_0_1_n_n.lhsIdx i r 0).val = (i 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl

theorem lhs_pos (i : S128x1024.Idx) (r : dot_S128x1024_S1024x1024_S128x1024_1_0_0_1_n_n.contr.Idx) :
    (dot_S128x1024_S1024x1024_S128x1024_1_0_0_1_n_n.lhsIdx i r 1).val = (r ⟨0, by decide⟩).val :=
  dot_S128x1024_S1024x1024_S128x1024_1_0_0_1_n_n.lhsIdx_val_of_single rfl i r

theorem rhs_pos (i : S128x1024.Idx) (r : dot_S128x1024_S1024x1024_S128x1024_1_0_0_1_n_n.contr.Idx) :
    (dot_S128x1024_S1024x1024_S128x1024_1_0_0_1_n_n.rhsIdx i r 0).val = (r ⟨0, by decide⟩).val :=
  dot_S128x1024_S1024x1024_S128x1024_1_0_0_1_n_n.rhsIdx_val_of_single rfl i r

theorem rhs_col (i : S128x1024.Idx) (r : dot_S128x1024_S1024x1024_S128x1024_1_0_0_1_n_n.contr.Idx) :
    (dot_S128x1024_S1024x1024_S128x1024_1_0_0_1_n_n.rhsIdx i r 1).val = (i 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-! ## The two non-pointwise pieces of the body -/

/-- A block's rows against one matrix of a weight stack, as the body spells it: the matrix unit's product of the
    block with the [1, 1024, 1024] slab cast to [1024, 1024], onto zeros. -/
def prod (a : Vec Ideal S128x1024 .f32) (w : Vec Ideal S1x1024x1024 .f32) : FVec Ideal S128x1024 .f32 :=
  matmul (φ₁ := .f32) (φ₂ := .f32) dot_S128x1024_S1024x1024_S128x1024_1_0_0_1_n_n (some .fp32) a
    (shapeCast S1024x1024 w shapeCasts_S1x1024x1024_S1024x1024) (constant S128x1024 .f32 0x00000000#32)

/-- A bias row as the body spells it: its unit axis dropped, put back, and the row repeated down the block. -/
def rows (b : Vec Ideal S1x1024 .f32) : FVec Ideal S128x1024 .f32 :=
  broadcastTo S128x1024 (shapeCast S1x1024 (shapeCast S1024 b shapeCasts_S1x1024_S1024) shapeCasts_S1024_S1x1024)
    broadcasts_S1x1024_S128x1024

/-- Row `p` of a block against column `q` of a [1, 1024, 1024] slab. -/
def dotBlk (a : Vec Ideal S128x1024 .f32) (w : Vec Ideal S1x1024x1024 .f32) (p : Fin 128) (q : Fin 1024) : EReal :=
  ∑ k : Fin 1024, a (ix2 p k) * w (ix3 (0 : Fin 1) k q)

/-- The product at (p, q) is the sum over the contracted position of row p times column q. -/
theorem prod_at (a : Vec Ideal S128x1024 .f32) (w : Vec Ideal S1x1024x1024 .f32) (p : Fin 128) (q : Fin 1024) :
    prod a w (ix2 p q) = dotBlk a w p q := by
  unfold prod dotBlk
  refine (Ideal.matmul_constant_zero_apply (φ₁ := .f32) (φ₂ := .f32) dot_S128x1024_S1024x1024_S128x1024_1_0_0_1_n_n (some .fp32) a _ (ix2 p q)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k :=
    funext fun a => Fin.ext (by
      match a with
      | ⟨0, _⟩ => exact lhs_row _ _
      | ⟨1, _⟩ => exact (lhs_pos _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q :=
    funext fun a => Fin.ext (by
      match a with
      | ⟨0, _⟩ => exact (rhs_pos _ _).trans hk
      | ⟨1, _⟩ => exact rhs_col _ _)
  rw [el, er, shapeCast_1ab_ab_apply]

/-- The repeated bias row at (p, q) is the row's entry q. -/
theorem rows_at (b : Vec Ideal S1x1024 .f32) (p : Fin 128) (q : Fin 1024) :
    rows b (ix2 p q) = b (ix2 (0 : Fin 1) q) := by
  unfold rows
  rw [broadcastTo_1b_ab_apply, shapeCast_a_1a_apply, shapeCast_1a_a_apply]

/-! ## The weight and bias slabs the body loads -/

/-- The slab loaded at offset (g, 0, 0) of a weight stack is its g-th matrix. -/
theorem ld_slab (w : Vec Ideal S3x1024x1024 .f32) (off : Fin 3 → Nat)
    (inb : ∀ a, off a + S1x1024x1024.size a ≤ S3x1024x1024.size a) (g : Fin 3)
    (h0 : off 0 = g.val) (h1 : off 1 = 0) (h2 : off 2 = 0) (k q : Fin 1024) :
    View.ld w (Rect.unit (s := S3x1024x1024) off S1x1024x1024.size inb) (ix3 (0 : Fin 1) k q) = w (ix3 g k q) := by
  show w _ = w _
  refine congrArg w (funext fun a => Fin.ext ?_)
  match a with
  | ⟨0, _⟩ => show off 0 + 1 * 0 = g.val; omega
  | ⟨1, _⟩ => show off 1 + 1 * k.val = k.val; omega
  | ⟨2, _⟩ => show off 2 + 1 * q.val = q.val; omega

/-- So a block's row against a column of the loaded slab is the row against that column of the g-th matrix. -/
theorem dotBlk_ld (a : Vec Ideal S128x1024 .f32) (w : Vec Ideal S3x1024x1024 .f32) (off : Fin 3 → Nat)
    (inb : ∀ a, off a + S1x1024x1024.size a ≤ S3x1024x1024.size a) (g : Fin 3)
    (h0 : off 0 = g.val) (h1 : off 1 = 0) (h2 : off 2 = 0) (p : Fin 128) (q : Fin 1024) :
    dotBlk a (View.ld w (Rect.unit (s := S3x1024x1024) off S1x1024x1024.size inb)) p q = lin (B := 128) a w g p q := by
  unfold dotBlk lin
  exact Finset.sum_congr rfl fun k _ => by rw [ld_slab w off inb g h0 h1 h2 k q]

/-- The row loaded at offset (g, 0) of a bias stack is its g-th row. -/
theorem ld_row (b : Vec Ideal S3x1024 .f32) (off : Fin 2 → Nat)
    (inb : ∀ a, off a + S1x1024.size a ≤ S3x1024.size a) (g : Fin 3)
    (h0 : off 0 = g.val) (h1 : off 1 = 0) (q : Fin 1024) :
    View.ld b (Rect.unit (s := S3x1024) off S1x1024.size inb) (ix2 (0 : Fin 1) q) = b (ix2 g q) := by
  show b _ = b _
  refine congrArg b (funext fun a => Fin.ext ?_)
  match a with
  | ⟨0, _⟩ => show off 0 + 1 * 0 = g.val; omega
  | ⟨1, _⟩ => show off 1 + 1 * q.val = q.val; omega

/-! ## The payloads at an element -/

theorem hz : (![0, 0] : Fin 2 → Nat) = fun _ => 0 := funext fun a => by fin_cases a <;> rfl

/-- The reset gate's payload: the four terms added from the left, then the sigmoid gate. -/
theorem pay2_at (h x : Vec Ideal S128x1024 .f32) (wi : Vec Ideal S1x1024x1024 .f32) (bi : Vec Ideal S1x1024 .f32)
    (wh : Vec Ideal S1x1024x1024 .f32) (bh : Vec Ideal S1x1024 .f32) (p : Fin 128) (q : Fin 1024) :
    k0_pay2 h x wi bi wh bh (ix2 p q)
      = gateS (dotBlk x wi p q + bi (ix2 (0 : Fin 1) q) + dotBlk h wh p q + bh (ix2 (0 : Fin 1) q)) := by
  rw [← prod_at x wi p q, ← prod_at h wh p q, ← rows_at bi p q, ← rows_at bh p q]
  rfl

/-- The update gate's payload, of the same shape. -/
theorem pay3_at (h x : Vec Ideal S128x1024 .f32) (wi : Vec Ideal S1x1024x1024 .f32) (bi : Vec Ideal S1x1024 .f32)
    (wh : Vec Ideal S1x1024x1024 .f32) (bh : Vec Ideal S1x1024 .f32) (p : Fin 128) (q : Fin 1024) :
    k0_pay3 h x wi bi wh bh (ix2 p q)
      = gateS (dotBlk x wi p q + bi (ix2 (0 : Fin 1) q) + dotBlk h wh p q + bh (ix2 (0 : Fin 1) q)) := by
  rw [← prod_at x wi p q, ← prod_at h wh p q, ← rows_at bi p q, ← rows_at bh p q]
  rfl

/-- The candidate's input product. -/
theorem pay4_at (x : Vec Ideal S128x1024 .f32) (wi : Vec Ideal S1x1024x1024 .f32) (p : Fin 128) (q : Fin 1024) :
    k0_pay4 x wi (ix2 p q) = dotBlk x wi p q := prod_at x wi p q

/-- The candidate's input bias. -/
theorem pay5_at (bi : Vec Ideal S1x1024 .f32) (p : Fin 128) (q : Fin 1024) :
    k0_pay5 bi (ix2 p q) = bi (ix2 (0 : Fin 1) q) := rows_at bi p q

/-- The candidate times the cut complement of the update gate. -/
theorem pay6_at (h : Vec Ideal S128x1024 .f32) (r z a b : FVec Ideal S128x1024 .f32)
    (wh : Vec Ideal S1x1024x1024 .f32) (bh : Vec Ideal S1x1024 .f32) (p : Fin 128) (q : Fin 1024) :
    k0_pay6 h r z a b wh bh (ix2 p q)
      = gateT (a (ix2 p q) + b (ix2 p q) + r (ix2 p q) * cut (dotBlk h wh p q + bh (ix2 (0 : Fin 1) q)))
          * cut (cHi - z (ix2 p q)) := by
  rw [← prod_at h wh p q, ← rows_at bh p q]
  rfl

/-- What one grid point stores, at row p and column q of its block: the cell of the block's row p and column q. -/
theorem out_at (x0 x1 : Vec Ideal S128x1024 .f32) (x2 x3 : Vec Ideal S3x1024x1024 .f32) (x4 x5 : Vec Ideal S3x1024 .f32)
    (p : Fin 128) (q : Fin 1024) :
    out0_6 x0 x1 x2 x3 x4 x5 (ix2 p q) = next (B := 128) x0 x1 x2 x3 x4 x5 p q := by
  unfold out0_6
  rw [View.canon_unit_zero hz]
  simp only [View.ld_unit_zero (S := S128x1024) hz]
  show cut (k0_pay6 x1 (k0_pay2 x1 x0 (View.ld x2 r0_1) (View.ld x4 r0_2) (View.ld x3 r0_1) (View.ld x5 r0_2))
        (k0_pay3 x1 x0 (View.ld x2 r0_3) (View.ld x4 r0_4) (View.ld x3 r0_3) (View.ld x5 r0_4))
        (k0_pay4 x0 (View.ld x2 r0_5)) (k0_pay5 (View.ld x4 r0_6)) (View.ld x3 r0_5) (View.ld x5 r0_6) (ix2 p q)
      + x1 (ix2 p q) * k0_pay3 x1 x0 (View.ld x2 r0_3) (View.ld x4 r0_4) (View.ld x3 r0_3) (View.ld x5 r0_4) (ix2 p q)) = _
  rw [pay6_at, pay2_at, pay3_at, pay4_at, pay5_at]
  rw [dotBlk_ld x0 x2 ![0, 0, 0] _ 0 rfl rfl rfl, dotBlk_ld x1 x3 ![0, 0, 0] _ 0 rfl rfl rfl,
    dotBlk_ld x0 x2 ![1, 0, 0] _ 1 rfl rfl rfl, dotBlk_ld x1 x3 ![1, 0, 0] _ 1 rfl rfl rfl,
    dotBlk_ld x0 x2 ![2, 0, 0] _ 2 rfl rfl rfl, dotBlk_ld x1 x3 ![2, 0, 0] _ 2 rfl rfl rfl,
    ld_row x4 ![0, 0] _ 0 rfl rfl, ld_row x5 ![0, 0] _ 0 rfl rfl,
    ld_row x4 ![1, 0] _ 1 rfl rfl, ld_row x5 ![1, 0] _ 1 rfl rfl,
    ld_row x4 ![2, 0] _ 2 rfl rfl, ld_row x5 ![2, 0] _ 2 rfl rfl]
  rfl

/-- The same at any index of the block. -/
theorem out_at_idx (x0 x1 : Vec Ideal S128x1024 .f32) (x2 x3 : Vec Ideal S3x1024x1024 .f32) (x4 x5 : Vec Ideal S3x1024 .f32)
    (j : S128x1024.Idx) : out0_6 x0 x1 x2 x3 x4 x5 j = next (B := 128) x0 x1 x2 x3 x4 x5 (j 0) (j 1) := by
  obtain ⟨p, q, rfl⟩ : ∃ (p : Fin 128) (q : Fin 1024), j = ix2 p q := ⟨j 0, j 1, eq_ix2 j⟩
  exact out_at x0 x1 x2 x3 x4 x5 p q

end Cert.KernelIdeal.Body

end
-- ==== Proof.KernelArr.lean ====
/-
  From the grid's blocks to the whole result array.

  The grid has 32 points; point t receives rows 128·t … 128·t + 127 of x and of the old state, the whole
  weight and bias stacks, and writes back rows 128·t … 128·t + 127 of the result.  Row p of a block is
  therefore row 128·t + p of its array, so what point t writes back is block t of the cell's array of the
  whole arguments; the 32 row blocks cover the 4096 rows (row r lies in block r / 128), so the result
  array after the run is the cell's array.
-/
import proofs.«173634_j80032420593692_2_alg».proof.Proof.Gen.KernelIdeal.Value
import proofs.«173634_j80032420593692_2_alg».proof.Proof.KernelAt
import Idealize.ShloMosaic.Lib.Pipeline.Value

noncomputable section

namespace Cert.KernelIdeal.Arr

open Cert.KernelIdeal Cert.KernelIdeal.Gen Cert.KernelIdeal.Body Cert.GruCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the grid: the two batch-tiled inputs and the output sit at row block t, the
    four parameter stacks at block zero. -/
theorem where_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as rows of its array -/

/-- Row p of x's block at point t is row 128·t + p of x. -/
theorem blk_x (c : Dev nD) (t : Fin cfg0.N) (p : Fin 128) (k : Fin 1024) (r : Fin 4096) (hr : r.val = t.val * 128 + p.val) :
    (iblk m c 0 t : Vec Ideal S128x1024 .f32) (ix2 p k) = (V m c main_arg0 : S4096x1024.Idx → EReal) (ix2 r k) := by
  obtain ⟨e0, e1, -⟩ := where_blocks t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 128 + 1 * p.val = r.val; omega
  | ⟨1, _⟩ => show win0_0.index t (1 : Fin 2) * 1024 + 1 * k.val = k.val; omega

/-- Row p of the old state's block at point t is row 128·t + p of the old state. -/
theorem blk_h (c : Dev nD) (t : Fin cfg0.N) (p : Fin 128) (k : Fin 1024) (r : Fin 4096) (hr : r.val = t.val * 128 + p.val) :
    (iblk m c 1 t : Vec Ideal S128x1024 .f32) (ix2 p k) = (V m c main_arg1 : S4096x1024.Idx → EReal) (ix2 r k) := by
  obtain ⟨-, -, e0, e1, -⟩ := where_blocks t
  show V m c main_arg1 (((cfg0.win 1).blk t).view.emb (ix2 p k)) = V m c main_arg1 (ix2 r k)
  refine congrArg (V m c main_arg1) (funext fun a => Fin.ext ?_)
  match a with
  | ⟨0, _⟩ => show win0_1.index t (0 : Fin 2) * 128 + 1 * p.val = r.val; omega
  | ⟨1, _⟩ => show win0_1.index t (1 : Fin 2) * 1024 + 1 * k.val = k.val; omega

/-- The input weights' block is the whole stack. -/
theorem blk_wi (c : Dev nD) (t : Fin cfg0.N) (g : Fin 3) (k q : Fin 1024) :
    (iblk m c 2 t : Vec Ideal S3x1024x1024 .f32) (ix3 g k q) = (V m c main_arg2 : S3x1024x1024.Idx → EReal) (ix3 g k q) := by
  obtain ⟨-, -, -, -, e0, e1, e2, -⟩ := where_blocks t
  show V m c main_arg2 (((cfg0.win 2).blk t).view.emb (ix3 g k q)) = V m c main_arg2 (ix3 g k q)
  refine congrArg (V m c main_arg2) (funext fun a => Fin.ext ?_)
  match a with
  | ⟨0, _⟩ => show win0_2.index t (0 : Fin 3) * 3 + 1 * g.val = g.val; omega
  | ⟨1, _⟩ => show win0_2.index t (1 : Fin 3) * 1024 + 1 * k.val = k.val; omega
  | ⟨2, _⟩ => show win0_2.index t (2 : Fin 3) * 1024 + 1 * q.val = q.val; omega

/-- The hidden weights' block is the whole stack. -/
theorem blk_wh (c : Dev nD) (t : Fin cfg0.N) (g : Fin 3) (k q : Fin 1024) :
    (iblk m c 3 t : Vec Ideal S3x1024x1024 .f32) (ix3 g k q) = (V m c main_arg3 : S3x1024x1024.Idx → EReal) (ix3 g k q) := by
  obtain ⟨-, -, -, -, -, -, -, e0, e1, e2, -⟩ := where_blocks t
  show V m c main_arg3 (((cfg0.win 3).blk t).view.emb (ix3 g k q)) = V m c main_arg3 (ix3 g k q)
  refine congrArg (V m c main_arg3) (funext fun a => Fin.ext ?_)
  match a with
  | ⟨0, _⟩ => show win0_3.index t (0 : Fin 3) * 3 + 1 * g.val = g.val; omega
  | ⟨1, _⟩ => show win0_3.index t (1 : Fin 3) * 1024 + 1 * k.val = k.val; omega
  | ⟨2, _⟩ => show win0_3.index t (2 : Fin 3) * 1024 + 1 * q.val = q.val; omega

/-- The input biases' block is the whole stack. -/
theorem blk_bi (c : Dev nD) (t : Fin cfg0.N) (g : Fin 3) (q : Fin 1024) :
    (iblk m c 4 t : Vec Ideal S3x1024 .f32) (ix2 g q) = (V m c main_arg4 : S3x1024.Idx → EReal) (ix2 g q) := by
  obtain ⟨-, -, -, -, -, -, -, -, -, -, e0, e1, -⟩ := where_blocks t
  show V m c main_arg4 (((cfg0.win 4).blk t).view.emb (ix2 g q)) = V m c main_arg4 (ix2 g q)
  refine congrArg (V m c main_arg4) (funext fun a => Fin.ext ?_)
  match a with
  | ⟨0, _⟩ => show win0_4.index t (0 : Fin 2) * 3 + 1 * g.val = g.val; omega
  | ⟨1, _⟩ => show win0_4.index t (1 : Fin 2) * 1024 + 1 * q.val = q.val; omega

/-- The hidden biases' block is the whole stack. -/
theorem blk_bh (c : Dev nD) (t : Fin cfg0.N) (g : Fin 3) (q : Fin 1024) :
    (iblk m c 5 t : Vec Ideal S3x1024 .f32) (ix2 g q) = (V m c main_arg5 : S3x1024.Idx → EReal) (ix2 g q) := by
  obtain ⟨-, -, -, -, -, -, -, -, -, -, -, -, e0, e1, -⟩ := where_blocks t
  show V m c main_arg5 (((cfg0.win 5).blk t).view.emb (ix2 g q)) = V m c main_arg5 (ix2 g q)
  refine congrArg (V m c main_arg5) (funext fun a => Fin.ext ?_)
  match a with
  | ⟨0, _⟩ => show win0_5.index t (0 : Fin 2) * 3 + 1 * g.val = g.val; omega
  | ⟨1, _⟩ => show win0_5.index t (1 : Fin 2) * 1024 + 1 * q.val = q.val; omega

/-! ## One point's cell is the whole arrays' cell at its rows -/

/-- The cell of the blocks at point t, row p, is the cell of the whole arrays at row 128·t + p. -/
theorem next_blk (c : Dev nD) (t : Fin cfg0.N) (p : Fin 128) (q : Fin 1024) (r : Fin 4096) (hr : r.val = t.val * 128 + p.val) :
    next (B := 128) (iblk m c 0 t : Vec Ideal S128x1024 .f32) (iblk m c 1 t : Vec Ideal S128x1024 .f32) (iblk m c 2 t : Vec Ideal S3x1024x1024 .f32) (iblk m c 3 t : Vec Ideal S3x1024x1024 .f32) (iblk m c 4 t : Vec Ideal S3x1024 .f32) (iblk m c 5 t : Vec Ideal S3x1024 .f32) p q
      = next (B := 4096) (V m c main_arg0) (V m c main_arg1) (V m c main_arg2) (V m c main_arg3) (V m c main_arg4) (V m c main_arg5) r q := by
  have hx : ∀ g : Fin 3, lin (B := 128) (iblk m c 0 t : Vec Ideal S128x1024 .f32) (iblk m c 2 t : Vec Ideal S3x1024x1024 .f32) g p q
      = lin (B := 4096) (V m c main_arg0) (V m c main_arg2) g r q := fun g => by
    unfold lin
    exact Finset.sum_congr rfl fun k _ => by rw [blk_x m c t p k r hr, blk_wi m c t g k q]
  have hh : ∀ g : Fin 3, lin (B := 128) (iblk m c 1 t : Vec Ideal S128x1024 .f32) (iblk m c 3 t : Vec Ideal S3x1024x1024 .f32) g p q
      = lin (B := 4096) (V m c main_arg1) (V m c main_arg3) g r q := fun g => by
    unfold lin
    exact Finset.sum_congr rfl fun k _ => by rw [blk_h m c t p k r hr, blk_wh m c t g k q]
  unfold next
  rw [hx 0, hx 1, hx 2, hh 0, hh 1, hh 2, blk_bi m c t 0 q, blk_bi m c t 1 q, blk_bi m c t 2 q,
    blk_bh m c t 0 q, blk_bh m c t 1 q, blk_bh m c t 2 q, blk_h m c t p q r hr]

/-! ## The write-backs and the cover -/

/-- What point t writes back is block t of the cell's array of the whole arguments. -/
theorem flushed_eq (c : Dev nD) (t : Fin cfg0.N) :
    (dats m 0 c).flushed 6 t
      = ((cfg0.win 6).blk t).view.read (Elt Ideal) (nextArr (B := 4096) (V m c main_arg0) (V m c main_arg1) (V m c main_arg2) (V m c main_arg3) (V m c main_arg4) (V m c main_arg5)) := by
  rw [Cert.KernelIdeal.Value.flushed6]
  funext j
  obtain ⟨-, -, -, -, -, -, -, -, -, -, -, -, -, -, e0, e1⟩ := where_blocks t
  have ht : t.val < 32 := Nat.lt_of_lt_of_eq t.isLt N_0
  have hJ0 : (((cfg0.win 6).xinj (grid0.coords t) j) 0).val < 128 := (((cfg0.win 6).xinj (grid0.coords t) j) 0).isLt
  refine (out_at_idx (iblk m c 0 t) (iblk m c 1 t) (iblk m c 2 t) (iblk m c 3 t) (iblk m c 4 t) (iblk m c 5 t) ((cfg0.win 6).xinj (grid0.coords t) j)).trans ?_
  refine (next_blk m c t (((cfg0.win 6).xinj (grid0.coords t) j) 0) (((cfg0.win 6).xinj (grid0.coords t) j) 1) ⟨t.val * 128 + (((cfg0.win 6).xinj (grid0.coords t) j) 0).val, by omega⟩ rfl).trans ?_
  show next (B := 4096) (V m c main_arg0) (V m c main_arg1) (V m c main_arg2) (V m c main_arg3) (V m c main_arg4) (V m c main_arg5) _ _
    = next (B := 4096) (V m c main_arg0) (V m c main_arg1) (V m c main_arg2) (V m c main_arg3) (V m c main_arg4) (V m c main_arg5) ((((cfg0.win 6).blk t).view.emb j) 0) ((((cfg0.win 6).blk t).view.emb j) 1)
  refine congrArg₂ (next (B := 4096) (V m c main_arg0) (V m c main_arg1) (V m c main_arg2) (V m c main_arg3) (V m c main_arg4) (V m c main_arg5)) (Fin.ext ?_) (Fin.ext ?_)
  · show t.val * 128 + (j 0).val = win0_6.index t (0 : Fin 2) * 128 + 1 * (j 0).val
    omega
  · show (j 1).val = win0_6.index t (1 : Fin 2) * 1024 + 1 * (j 1).val
    omega

/-- An index of the result is in point t's block iff each coordinate is in the block's range on its axis. -/
theorem mem_blk (t : Fin cfg0.N) (i : S4096x1024.Idx) :
    i ∈ ((cfg0.win 6).blk t).view.set ↔ ∀ a : Fin 2, win0_6.index t a * S128x1024.size a ≤ (i a).val
      ∧ (i a).val < win0_6.index t a * S128x1024.size a + S128x1024.size a := by
  show i ∈ ((View.whole main_v0).slice (win0_6.rect t)).set ↔ _
  rw [View.set_slice_whole, Rect.mem_set_unit]
  exact Iff.rfl

/-- Every index of the result is in the block of the point its row falls in. -/
theorem cover (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 32 := N_0
  let t : Fin cfg0.N := ⟨(i 0).val / 128, by rw [hN]; omega⟩
  have htv : t.val = (i 0).val / 128 := rfl
  obtain ⟨-, -, -, -, -, -, -, -, -, -, -, -, -, -, e0, e1⟩ := where_blocks t
  refine ⟨t, flush0_6 t, ?_⟩
  rw [mem_blk]
  intro a
  match a with
  | ⟨0, _⟩ =>
    show win0_6.index t (0 : Fin 2) * 128 ≤ (i 0).val ∧ (i 0).val < win0_6.index t (0 : Fin 2) * 128 + 128
    omega
  | ⟨1, _⟩ =>
    show win0_6.index t (1 : Fin 2) * 1024 ≤ (i 1).val ∧ (i 1).val < win0_6.index t (1 : Fin 2) * 1024 + 1024
    omega

/-- The result array after the run is the cell's array of the arguments as launched. -/
theorem final (c : Dev nD) : (dats m 0 c).arrAt 6 cfg0.N = nextArr (B := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (nextArr (B := 4096) (V m c main_arg0) (V m c main_arg1) (V m c main_arg2) (V m c main_arg3) (V m c main_arg4) (V m c main_arg5)) (fun t _ => flushed_eq m c t) cover

/-- The kernel's run, read: the result at the cell's array, the arguments unchanged. -/
theorem run : θ_run defs (onTc (τ := τ) (main (F := Ideal))) ⟨m, fun _ => 0, ρ⟩ fun r => ∀ c : Dev nD,
      r.2.mem ((c : Thread nD τ).loc main_v0) = nextArr (B := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Arr

end
-- ==== Proof.RefAt.lean ====
/-
  The reference, read at an element.

  The reference computes the cell on whole [4096, 1024] arrays: each weight matrix is a slice of its stack with the
  unit axis dropped, each product a host dot_general, each bias a slice reshaped and broadcast over the batch;
  clip is a maximum with −128 followed by a minimum with 127; the sigmoid is written out as 1 / (1 + e^(−v)).
  At (p, q) every one of these reads its operands at (p, q), except the products — sums over the contracted
  position of row p against column q — and the bias rows, read at column q.  The reference adds each gate's terms
  as (input part) + (hidden part).
-/
import proofs.«173634_j80032420593692_2_alg».proof.Proof.Gen.ReferenceIdeal.Read
import proofs.«173634_j80032420593692_2_alg».proof.Proof.Cell
import Idealize.ShloMosaic.Lib.ValueIdx

noncomputable section

namespace Cert.ReferenceIdeal.At

open Cert.ReferenceIdeal Cert.ReferenceIdeal.Gen Cert.ReferenceIdeal.Read Cert.GruCell
open Idealize.ShloMosaic Idealize.ShloMosaic.ValueIdx

/-! ## The six products -/

/-- Product v2: row p of its left operand against column q of matrix 0 of its stack. -/
theorem dot_v2 (x0 : (⟨S4096x1024, .f32⟩ : BufTy).Contents (Elt Ideal)) (x2 : (⟨S3x1024x1024, .f32⟩ : BufTy).Contents (Elt Ideal))
    (p : Fin 4096) (q : Fin 1024) : val_main_v2 (F := Ideal) x0 x2 (ix2 p q) = lin (B := 4096) x0 x2 0 p q := by
  rw [val_main_v2_apply]
  unfold lin
  refine Finset.sum_congr rfl fun k _ => ?_
  rw [val_main_v1_apply, val_main_v0_apply]
  have el : lidx_main_v2 (ix2 p q) k = ix2 p k := funext fun a => Fin.ext (by
    match a with
    | ⟨0, _⟩ => rfl
    | ⟨1, _⟩ => rfl)
  have er : idx_main_v0 (idx_main_v1 (ridx_main_v2 (ix2 p q) k)) = ix3 (0 : Fin 3) k q := funext fun a => Fin.ext (by
    have hk : k.val < 1024 := k.isLt
    have hq : q.val < 1024 := q.isLt
    match a with
    | ⟨0, _⟩ => rfl
    | ⟨1, _⟩ => show (k.val * 1024 + q.val) / 1024 % 1024 = k.val; omega
    | ⟨2, _⟩ => show (k.val * 1024 + q.val) % 1024 = q.val; omega)
  rw [el, er]

/-- Product v10: row p of its left operand against column q of matrix 0 of its stack. -/
theorem dot_v10 (x1 : (⟨S4096x1024, .f32⟩ : BufTy).Contents (Elt Ideal)) (x3 : (⟨S3x1024x1024, .f32⟩ : BufTy).Contents (Elt Ideal))
    (p : Fin 4096) (q : Fin 1024) : val_main_v10 (F := Ideal) x1 x3 (ix2 p q) = lin (B := 4096) x1 x3 0 p q := by
  rw [val_main_v10_apply]
  unfold lin
  refine Finset.sum_congr rfl fun k _ => ?_
  rw [val_main_v9_apply, val_main_v8_apply]
  have el : lidx_main_v10 (ix2 p q) k = ix2 p k := funext fun a => Fin.ext (by
    match a with
    | ⟨0, _⟩ => rfl
    | ⟨1, _⟩ => rfl)
  have er : idx_main_v8 (idx_main_v9 (ridx_main_v10 (ix2 p q) k)) = ix3 (0 : Fin 3) k q := funext fun a => Fin.ext (by
    have hk : k.val < 1024 := k.isLt
    have hq : q.val < 1024 := q.isLt
    match a with
    | ⟨0, _⟩ => rfl
    | ⟨1, _⟩ => show (k.val * 1024 + q.val) / 1024 % 1024 = k.val; omega
    | ⟨2, _⟩ => show (k.val * 1024 + q.val) % 1024 = q.val; omega)
  rw [el, er]

/-- Product v34: row p of its left operand against column q of matrix 1 of its stack. -/
theorem dot_v34 (x0 : (⟨S4096x1024, .f32⟩ : BufTy).Contents (Elt Ideal)) (x2 : (⟨S3x1024x1024, .f32⟩ : BufTy).Contents (Elt Ideal))
    (p : Fin 4096) (q : Fin 1024) : val_main_v34 (F := Ideal) x0 x2 (ix2 p q) = lin (B := 4096) x0 x2 1 p q := by
  rw [val_main_v34_apply]
  unfold lin
  refine Finset.sum_congr rfl fun k _ => ?_
  rw [val_main_v33_apply, val_main_v32_apply]
  have el : lidx_main_v34 (ix2 p q) k = ix2 p k := funext fun a => Fin.ext (by
    match a with
    | ⟨0, _⟩ => rfl
    | ⟨1, _⟩ => rfl)
  have er : idx_main_v32 (idx_main_v33 (ridx_main_v34 (ix2 p q) k)) = ix3 (1 : Fin 3) k q := funext fun a => Fin.ext (by
    have hk : k.val < 1024 := k.isLt
    have hq : q.val < 1024 := q.isLt
    match a with
    | ⟨0, _⟩ => rfl
    | ⟨1, _⟩ => show (k.val * 1024 + q.val) / 1024 % 1024 = k.val; omega
    | ⟨2, _⟩ => show (k.val * 1024 + q.val) % 1024 = q.val; omega)
  rw [el, er]

/-- Product v42: row p of its left operand against column q of matrix 1 of its stack. -/
theorem dot_v42 (x1 : (⟨S4096x1024, .f32⟩ : BufTy).Contents (Elt Ideal)) (x3 : (⟨S3x1024x1024, .f32⟩ : BufTy).Contents (Elt Ideal))
    (p : Fin 4096) (q : Fin 1024) : val_main_v42 (F := Ideal) x1 x3 (ix2 p q) = lin (B := 4096) x1 x3 1 p q := by
  rw [val_main_v42_apply]
  unfold lin
  refine Finset.sum_congr rfl fun k _ => ?_
  rw [val_main_v41_apply, val_main_v40_apply]
  have el : lidx_main_v42 (ix2 p q) k = ix2 p k := funext fun a => Fin.ext (by
    match a with
    | ⟨0, _⟩ => rfl
    | ⟨1, _⟩ => rfl)
  have er : idx_main_v40 (idx_main_v41 (ridx_main_v42 (ix2 p q) k)) = ix3 (1 : Fin 3) k q := funext fun a => Fin.ext (by
    have hk : k.val < 1024 := k.isLt
    have hq : q.val < 1024 := q.isLt
    match a with
    | ⟨0, _⟩ => rfl
    | ⟨1, _⟩ => show (k.val * 1024 + q.val) / 1024 % 1024 = k.val; omega
    | ⟨2, _⟩ => show (k.val * 1024 + q.val) % 1024 = q.val; omega)
  rw [el, er]

/-- Product v66: row p of its left operand against column q of matrix 2 of its stack. -/
theorem dot_v66 (x0 : (⟨S4096x1024, .f32⟩ : BufTy).Contents (Elt Ideal)) (x2 : (⟨S3x1024x1024, .f32⟩ : BufTy).Contents (Elt Ideal))
    (p : Fin 4096) (q : Fin 1024) : val_main_v66 (F := Ideal) x0 x2 (ix2 p q) = lin (B := 4096) x0 x2 2 p q := by
  rw [val_main_v66_apply]
  unfold lin
  refine Finset.sum_congr rfl fun k _ => ?_
  rw [val_main_v65_apply, val_main_v64_apply]
  have el : lidx_main_v66 (ix2 p q) k = ix2 p k := funext fun a => Fin.ext (by
    match a with
    | ⟨0, _⟩ => rfl
    | ⟨1, _⟩ => rfl)
  have er : idx_main_v64 (idx_main_v65 (ridx_main_v66 (ix2 p q) k)) = ix3 (2 : Fin 3) k q := funext fun a => Fin.ext (by
    have hk : k.val < 1024 := k.isLt
    have hq : q.val < 1024 := q.isLt
    match a with
    | ⟨0, _⟩ => rfl
    | ⟨1, _⟩ => show (k.val * 1024 + q.val) / 1024 % 1024 = k.val; omega
    | ⟨2, _⟩ => show (k.val * 1024 + q.val) % 1024 = q.val; omega)
  rw [el, er]

/-- Product v74: row p of its left operand against column q of matrix 2 of its stack. -/
theorem dot_v74 (x1 : (⟨S4096x1024, .f32⟩ : BufTy).Contents (Elt Ideal)) (x3 : (⟨S3x1024x1024, .f32⟩ : BufTy).Contents (Elt Ideal))
    (p : Fin 4096) (q : Fin 1024) : val_main_v74 (F := Ideal) x1 x3 (ix2 p q) = lin (B := 4096) x1 x3 2 p q := by
  rw [val_main_v74_apply]
  unfold lin
  refine Finset.sum_congr rfl fun k _ => ?_
  rw [val_main_v73_apply, val_main_v72_apply]
  have el : lidx_main_v74 (ix2 p q) k = ix2 p k := funext fun a => Fin.ext (by
    match a with
    | ⟨0, _⟩ => rfl
    | ⟨1, _⟩ => rfl)
  have er : idx_main_v72 (idx_main_v73 (ridx_main_v74 (ix2 p q) k)) = ix3 (2 : Fin 3) k q := funext fun a => Fin.ext (by
    have hk : k.val < 1024 := k.isLt
    have hq : q.val < 1024 := q.isLt
    match a with
    | ⟨0, _⟩ => rfl
    | ⟨1, _⟩ => show (k.val * 1024 + q.val) / 1024 % 1024 = k.val; omega
    | ⟨2, _⟩ => show (k.val * 1024 + q.val) % 1024 = q.val; omega)
  rw [el, er]

/-! ## The six bias rows -/

/-- Bias v6: entry q of row 0 of its stack, whatever the batch row. -/
theorem bias_v6 (x4 : (⟨S3x1024, .f32⟩ : BufTy).Contents (Elt Ideal)) (p : Fin 4096) (q : Fin 1024) :
    val_main_v6 (F := Ideal) x4 (ix2 p q) = x4 (ix2 (0 : Fin 3) q) := by
  rw [val_main_v6_apply, val_main_v5_apply, val_main_v4_apply, val_main_v3_apply]
  refine congrArg x4 (funext fun a => Fin.ext ?_)
  have hq : q.val < 1024 := q.isLt
  match a with
  | ⟨0, _⟩ => rfl
  | ⟨1, _⟩ => show q.val % 1024 = q.val; omega

/-- Bias v14: entry q of row 0 of its stack, whatever the batch row. -/
theorem bias_v14 (x5 : (⟨S3x1024, .f32⟩ : BufTy).Contents (Elt Ideal)) (p : Fin 4096) (q : Fin 1024) :
    val_main_v14 (F := Ideal) x5 (ix2 p q) = x5 (ix2 (0 : Fin 3) q) := by
  rw [val_main_v14_apply, val_main_v13_apply, val_main_v12_apply, val_main_v11_apply]
  refine congrArg x5 (funext fun a => Fin.ext ?_)
  have hq : q.val < 1024 := q.isLt
  match a with
  | ⟨0, _⟩ => rfl
  | ⟨1, _⟩ => show q.val % 1024 = q.val; omega

/-- Bias v38: entry q of row 1 of its stack, whatever the batch row. -/
theorem bias_v38 (x4 : (⟨S3x1024, .f32⟩ : BufTy).Contents (Elt Ideal)) (p : Fin 4096) (q : Fin 1024) :
    val_main_v38 (F := Ideal) x4 (ix2 p q) = x4 (ix2 (1 : Fin 3) q) := by
  rw [val_main_v38_apply, val_main_v37_apply, val_main_v36_apply, val_main_v35_apply]
  refine congrArg x4 (funext fun a => Fin.ext ?_)
  have hq : q.val < 1024 := q.isLt
  match a with
  | ⟨0, _⟩ => rfl
  | ⟨1, _⟩ => show q.val % 1024 = q.val; omega

/-- Bias v46: entry q of row 1 of its stack, whatever the batch row. -/
theorem bias_v46 (x5 : (⟨S3x1024, .f32⟩ : BufTy).Contents (Elt Ideal)) (p : Fin 4096) (q : Fin 1024) :
    val_main_v46 (F := Ideal) x5 (ix2 p q) = x5 (ix2 (1 : Fin 3) q) := by
  rw [val_main_v46_apply, val_main_v45_apply, val_main_v44_apply, val_main_v43_apply]
  refine congrArg x5 (funext fun a => Fin.ext ?_)
  have hq : q.val < 1024 := q.isLt
  match a with
  | ⟨0, _⟩ => rfl
  | ⟨1, _⟩ => show q.val % 1024 = q.val; omega

/-- Bias v70: entry q of row 2 of its stack, whatever the batch row. -/
theorem bias_v70 (x4 : (⟨S3x1024, .f32⟩ : BufTy).Contents (Elt Ideal)) (p : Fin 4096) (q : Fin 1024) :
    val_main_v70 (F := Ideal) x4 (ix2 p q) = x4 (ix2 (2 : Fin 3) q) := by
  rw [val_main_v70_apply, val_main_v69_apply, val_main_v68_apply, val_main_v67_apply]
  refine congrArg x4 (funext fun a => Fin.ext ?_)
  have hq : q.val < 1024 := q.isLt
  match a with
  | ⟨0, _⟩ => rfl
  | ⟨1, _⟩ => show q.val % 1024 = q.val; omega

/-- Bias v78: entry q of row 2 of its stack, whatever the batch row. -/
theorem bias_v78 (x5 : (⟨S3x1024, .f32⟩ : BufTy).Contents (Elt Ideal)) (p : Fin 4096) (q : Fin 1024) :
    val_main_v78 (F := Ideal) x5 (ix2 p q) = x5 (ix2 (2 : Fin 3) q) := by
  rw [val_main_v78_apply, val_main_v77_apply, val_main_v76_apply, val_main_v75_apply]
  refine congrArg x5 (funext fun a => Fin.ext ?_)
  have hq : q.val < 1024 := q.isLt
  match a with
  | ⟨0, _⟩ => rfl
  | ⟨1, _⟩ => show q.val % 1024 = q.val; omega

/-! ## The pointwise stages -/

variable (x0 x1 : (⟨S4096x1024, .f32⟩ : BufTy).Contents (Elt Ideal)) (x2 x3 : (⟨S3x1024x1024, .f32⟩ : BufTy).Contents (Elt Ideal)) (x4 x5 : (⟨S3x1024, .f32⟩ : BufTy).Contents (Elt Ideal))

/-- The reset gate's pre-activation, grouped as the reference adds it. -/
theorem pre_r (i : S4096x1024.Idx) : val_main_v16 (F := Ideal) x0 x1 x2 x3 x4 x5 i
    = (val_main_v2 (F := Ideal) x0 x2 i + val_main_v6 (F := Ideal) x4 i) + (val_main_v10 (F := Ideal) x1 x3 i + val_main_v14 (F := Ideal) x5 i) := rfl

/-- The update gate's pre-activation. -/
theorem pre_z (i : S4096x1024.Idx) : val_main_v48 (F := Ideal) x0 x1 x2 x3 x4 x5 i
    = (val_main_v34 (F := Ideal) x0 x2 i + val_main_v38 (F := Ideal) x4 i) + (val_main_v42 (F := Ideal) x1 x3 i + val_main_v46 (F := Ideal) x5 i) := rfl

/-- The candidate's input part. -/
theorem pre_n (i : S4096x1024.Idx) : val_main_v71 (F := Ideal) x0 x2 x4 i
    = val_main_v66 (F := Ideal) x0 x2 i + val_main_v70 (F := Ideal) x4 i := rfl

/-- The candidate's hidden part. -/
theorem pre_g (i : S4096x1024.Idx) : val_main_v79 (F := Ideal) x1 x3 x5 i
    = val_main_v74 (F := Ideal) x1 x3 i + val_main_v78 (F := Ideal) x5 i := rfl

/-- The reset gate: the written-out logistic of the cut pre-activation over 40, times 127, floored. -/
theorem gate_r (i : S4096x1024.Idx) : val_main_v31 (F := Ideal) x0 x1 x2 x3 x4 x5 i = gateS (val_main_v16 (F := Ideal) x0 x1 x2 x3 x4 x5 i) := by
  show Ideal.liftRound Int.floor (cHi * Ideal.div (Ideal.ofBits .f32 0x3F800000#32)
    (Ideal.ofBits .f32 0x3F800000#32 + Ideal.exp (-(Ideal.div (cut (val_main_v16 (F := Ideal) x0 x1 x2 x3 x4 x5 i)) c40)))) = _
  rw [logistic_written]; rfl

/-- The update gate, likewise. -/
theorem gate_z (i : S4096x1024.Idx) : val_main_v63 (F := Ideal) x0 x1 x2 x3 x4 x5 i = gateS (val_main_v48 (F := Ideal) x0 x1 x2 x3 x4 x5 i) := by
  show Ideal.liftRound Int.floor (cHi * Ideal.div (Ideal.ofBits .f32 0x3F800000#32)
    (Ideal.ofBits .f32 0x3F800000#32 + Ideal.exp (-(Ideal.div (cut (val_main_v48 (F := Ideal) x0 x1 x2 x3 x4 x5 i)) c40)))) = _
  rw [logistic_written]; rfl

/-- The candidate. -/
theorem cand (i : S4096x1024.Idx) : val_main_v95 (F := Ideal) x0 x1 x2 x3 x4 x5 i
    = gateT (val_main_v71 (F := Ideal) x0 x2 x4 i + val_main_v31 (F := Ideal) x0 x1 x2 x3 x4 x5 i * cut (val_main_v79 (F := Ideal) x1 x3 x5 i)) := rfl

/-- The new state from the gates and the candidate. -/
theorem out_stage (i : S4096x1024.Idx) : val_main_v108 (F := Ideal) x0 x1 x2 x3 x4 x5 i
    = cut (val_main_v95 (F := Ideal) x0 x1 x2 x3 x4 x5 i * cut (cHi - val_main_v63 (F := Ideal) x0 x1 x2 x3 x4 x5 i) + x1 i * val_main_v63 (F := Ideal) x0 x1 x2 x3 x4 x5 i) := rfl

/-- The reference's result at (p, q) is the cell of row p and column q. -/
theorem result_at (p : Fin 4096) (q : Fin 1024) :
    val_main_v108 (F := Ideal) x0 x1 x2 x3 x4 x5 (ix2 p q) = next (B := 4096) x0 x1 x2 x3 x4 x5 p q := by
  rw [out_stage, cand, gate_r, gate_z, pre_r, pre_z, pre_n, pre_g,
    dot_v2, dot_v10, dot_v34, dot_v42, dot_v66, dot_v74, bias_v6, bias_v14, bias_v38, bias_v46, bias_v70, bias_v78]
  exact cell_grouped _ _ _ _ _ _ _ _ _ _ _ _ _

/-- The reference's result array is the cell's array. -/
theorem result_eq : val_main_v108 (F := Ideal) x0 x1 x2 x3 x4 x5 = nextArr (B := 4096) x0 x1 x2 x3 x4 x5 := by
  funext i
  obtain ⟨p, q, rfl⟩ : ∃ (p : Fin 4096) (q : Fin 1024), i = ix2 p q := ⟨i 0, i 1, eq_ix2 i⟩
  exact result_at x0 x1 x2 x3 x4 x5 p q

end Cert.ReferenceIdeal.At

end
-- ==== Proof.lean ====
/-
  The quantised GRU cell kernel against its jnp reference, over the extended reals.

  Both programs compute, for every batch row p and hidden unit q, the same cell: three pairs of dot products
  (row p of x, and of the old state, against column q of the three input and the three hidden weight matrices), the
  six bias entries of column q, cut (scale by 1/256, floor, clamp to [−128, 127]) in front of a sigmoid gate
  floor (127 · σ(· / 40)) for the reset and update gates and a floor (127 · tanh(· / 64)) for the candidate, and the
  new state cut (n · cut (127 − z) + h · z).

  The kernel tiles the batch into 32 blocks of 128 rows and keeps the weights resident; block t of its result is
  the cell of rows 128·t … 128·t + 127, and the blocks cover the array.  The reference works on the whole arrays.
  The two differ in three spellings, none of which changes a value on the extended reals: the matrix unit's
  contraction onto zeros against the host's dot_general (one sum); the kernel's single logistic against the
  reference's 1 / (1 + e^(−v)) (the logistic's definition, the word 0x3F800000 being one); and the order in which a
  gate's four terms are added — from the left in the kernel, (input part) + (hidden part) in the reference — which
  is associativity of +.  No finiteness of the inputs is needed.

  No operation of the kernel is replaced on the way from machine words to the extended reals, so the
  word-level kernel's reading over the extended reals is its own text and that conjunct is trivial.
-/
import proofs.«173634_j80032420593692_2_alg».proof.Defs
import proofs.«173634_j80032420593692_2_alg».proof.Proof.Gen.Kernel
import proofs.«173634_j80032420593692_2_alg».proof.Proof.Gen.Kernel.Skeleton
import proofs.«173634_j80032420593692_2_alg».proof.Proof.Gen.Kernel.Launch
import proofs.«173634_j80032420593692_2_alg».proof.Proof.Gen.Kernel.Points
import proofs.«173634_j80032420593692_2_alg».proof.Proof.Gen.Kernel.Frame
import proofs.«173634_j80032420593692_2_alg».proof.Proof.Gen.KernelIdeal
import proofs.«173634_j80032420593692_2_alg».proof.Proof.Gen.KernelIdeal.Skeleton
import proofs.«173634_j80032420593692_2_alg».proof.Proof.Gen.KernelIdeal.Launch
import proofs.«173634_j80032420593692_2_alg».proof.Proof.Gen.KernelIdeal.Points
import proofs.«173634_j80032420593692_2_alg».proof.Proof.Gen.KernelIdeal.Frame
import proofs.«173634_j80032420593692_2_alg».proof.Proof.Gen.ReferenceIdeal
import proofs.«173634_j80032420593692_2_alg».proof.Proof.Gen.Pre_finite_inputs
import proofs.«173634_j80032420593692_2_alg».proof.Proof.Gen.KernelIdeal.Value
import proofs.«173634_j80032420593692_2_alg».proof.Proof.Gen.ReferenceIdeal.Run
import proofs.«173634_j80032420593692_2_alg».proof.Proof.Gen.ReferenceIdeal.Read
import proofs.«173634_j80032420593692_2_alg».proof.Proof.KernelArr
import proofs.«173634_j80032420593692_2_alg».proof.Proof.RefAt
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both runs end with the result array at the cell's array of the (agreeing) arguments. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, Cert.ReferenceIdeal.At.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
